-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x16x64 : Shape := ⟨4, ![2, 2048, 16, 64]⟩
abbrev S_ : Shape := ⟨0, ![]⟩

class Facts : Prop where
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  h_S_ : 0 < S_.numel

variable [Facts]

def fn {F : FTy → Type} [FloatOps F] (main_arg0 : FVec F S2x2048x16x64 .f32) (main_arg1 : FVec F S2x2048x16x64 .f32) (main_arg2 : FVec F S2x2048x16x64 .f32) : IVec S_ 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_c : IVec S_ 1 := constantI S_ 1 1#1
  let main_v3 : IVec S_ 1 := (fun x v => Host.reduce IntOp.andi x v reducesTo_S2x2048x16x64_S_d0_1_2_3 h_S_) main_v2 main_c
  let main_v4 : FVec F S2x2048x16x64 .f32 := Host.absf main_arg1
  let main_cst_0 : FVec F S_ .f32 := constant S_ .f32 0x7F800000#32
  let main_v5 : FVec F S2x2048x16x64 .f32 := broadcastInDim S2x2048x16x64 ![] bcast_S_S2x2048x16x64 main_cst_0
  let main_v6 : IVec S2x2048x16x64 1 := cmpf .olt main_v4 main_v5
  let main_c_1 : IVec S_ 1 := constantI S_ 1 1#1
  let main_v7 : IVec S_ 1 := (fun x v => Host.reduce IntOp.andi x v reducesTo_S2x2048x16x64_S_d0_1_2_3 h_S_) main_v6 main_c_1
  let main_v8 : IVec S_ 1 := andi main_v3 main_v7
  let main_v9 : FVec F S2x2048x16x64 .f32 := Host.absf main_arg2
  let main_cst_2 : FVec F S_ .f32 := constant S_ .f32 0x7F800000#32
  let main_v10 : FVec F S2x2048x16x64 .f32 := broadcastInDim S2x2048x16x64 ![] bcast_S_S2x2048x16x64 main_cst_2
  let main_v11 : IVec S2x2048x16x64 1 := cmpf .olt main_v9 main_v10
  let main_c_3 : IVec S_ 1 := constantI S_ 1 1#1
  let main_v12 : IVec S_ 1 := (fun x v => Host.reduce IntOp.andi x v reducesTo_S2x2048x16x64_S_d0_1_2_3 h_S_) main_v11 main_c_3
  let main_v13 : IVec S_ 1 := andi main_v8 main_v12
  main_v13
-- ==== Kernel.lean ====
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x16x2048x64, .f32⟩
  | .hbm, ⟨4, _⟩ => ⟨S32x2048x64, .f32⟩
  | .hbm, ⟨5, _⟩ => ⟨S32x2048x64, .bf16⟩
  | .hbm, ⟨6, _⟩ => ⟨S2x16x2048x64, .f32⟩
  | .hbm, ⟨7, _⟩ => ⟨S32x2048x64, .f32⟩
  | .hbm, ⟨8, _⟩ => ⟨S32x2048x64, .bf16⟩
  | .hbm, ⟨9, _⟩ => ⟨S2x16x2048x64, .f32⟩
  | .hbm, ⟨10, _⟩ => ⟨S32x2048x64, .f32⟩
  | .hbm, ⟨11, _⟩ => ⟨S32x2048x64, .bf16⟩
  | .hbm, ⟨12, _⟩ => ⟨S32x2048x64, .f32⟩
  | .hbm, ⟨13, _⟩ => ⟨S2x16x2048x64, .f32⟩
  | .hbm, ⟨14, _⟩ => ⟨S2x2048x16x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2x2048x16x64_S2x16x2048x64_0_2_1_3 : S2x2048x16x64.Transposes [0, 2, 1, 3] S2x16x2048x64
  shapeCasts_S2x16x2048x64_S32x2048x64 : S2x16x2048x64.ShapeCasts S32x2048x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .bf16 = 32 ∨ (Rect.block (s := S32x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v2) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x16x2048x64, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | .hbm, ⟨25, _⟩ => ⟨S2x2048x16x64, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  The softmax-weighted average of one output element, on the extended reals.

  For one query row `q`, the keys `k t` and one value column `v t` (`t` over the keys), with scores
  `s t = (∑ j, q j * k t j) * c`, row maximum `M = max_t s t` and weights `w t = exp (s t - M)`:
  the kernel forms `(∑ t, w t * v t) / (∑ t, w t)` — it normalizes AFTER the weighted sum — while the
  reference forms `∑ t, (w t / (0 + ∑ t', w t')) * v t` — it normalizes the weights first. The two are equal
  when every score and every value is a real number: then `M` is a real (a maximum of finitely many reals,
  at least one), each weight is a positive real, their sum `L` is a positive real, division by `L` is
  multiplication by the real `1 / L`, and a real factor moves across a finite sum. On the extended reals
  in general the law fails (a factor does not move across a sum with infinite terms), which is why the
  statement carries the two finiteness hypotheses.
-/
import Idealize.ShloMosaic.PureOps.Ideal

noncomputable section

namespace Cert.Attn

open Idealize.ShloMosaic

/-! ## Finite sums and maxima of reals, read in the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, coerced. -/
theorem coe_max' (x y : ℝ) : ((max x y : ℝ) : EReal) = max (x : EReal) (y : EReal) :=
  (EReal.coe_strictMono.monotone.map_max (a := x) (b := y))

/-- The fold of `max` from `⊥` over a finite family of reals is `⊥` for the empty family and a real otherwise. -/
theorem fold_max_coe {ι : Type*} (s : Finset ι) (f : ι → ℝ) :
    (s = ∅ ∧ s.fold max (⊥ : EReal) (fun i => (f i : EReal)) = ⊥)
      ∨ ∃ M : ℝ, s.fold max (⊥ : EReal) (fun i => (f i : EReal)) = (M : EReal) := by
  classical
  induction s using Finset.induction_on with
  | empty => exact Or.inl ⟨rfl, Finset.fold_empty⟩
  | insert a s ha ih =>
    refine Or.inr ?_
    rw [Finset.fold_insert ha]
    rcases ih with ⟨-, h⟩ | ⟨M, h⟩
    · exact ⟨f a, by rw [h]; exact max_eq_left bot_le⟩
    · exact ⟨max (f a) M, by rw [h, coe_max']⟩

/-! ## The element's ingredients -/

variable {T D : ℕ}

/-- The scaled score of key `t`: the query row against the key row, times the scale `c`. -/
def score (c : EReal) (q : Fin D → EReal) (k : Fin T → Fin D → EReal) (t : Fin T) : EReal :=
  (∑ j : Fin D, q j * k t j) * c

/-- The row maximum: the fold of `max` from `-∞` over the keys. -/
def rowMax (s : Fin T → EReal) : EReal := (Finset.univ : Finset (Fin T)).fold max ⊥ s

/-- The weight of key `t`: the exponential of its score less the row maximum. -/
def weight (s : Fin T → EReal) (t : Fin T) : EReal := Ideal.exp (s t - rowMax s)

/-- Normalized after the weighted sum (the kernel's arrangement). -/
def avgAfter (s v : Fin T → EReal) : EReal :=
  Ideal.div (∑ t : Fin T, weight s t * v t) (∑ t : Fin T, weight s t)

/-- Normalized weight by weight, the denominator a sum started from zero (the reference's arrangement). -/
def avgBefore (s v : Fin T → EReal) : EReal :=
  ∑ t : Fin T, Ideal.div (weight s t) (0 + ∑ t' : Fin T, weight s t') * v t

/-- A score is a real when the scale, the query row and the key row are. -/
theorem score_real {c : EReal} {q : Fin D → EReal} {k : Fin T → Fin D → EReal}
    (hc : ∃ r : ℝ, c = r) (hq : ∀ j, ∃ r : ℝ, q j = r) (hk : ∀ t j, ∃ r : ℝ, k t j = r) (t : Fin T) :
    ∃ r : ℝ, score c q k t = r := by
  obtain ⟨cr, rfl⟩ := hc
  choose qr hq using hq
  choose kr hk using hk
  refine ⟨(∑ j : Fin D, qr j * kr t j) * cr, ?_⟩
  unfold score
  rw [EReal.coe_mul, coe_sum]
  refine congrArg (· * (cr : EReal)) (Finset.sum_congr rfl fun j _ => ?_)
  rw [hq j, hk t j, EReal.coe_mul]

/-! ## The law -/

/-- With real scores and real values, over at least one key, normalizing after the weighted sum and normalizing
    weight by weight give the same extended real. -/
theorem avgAfter_eq_avgBefore (hT : 0 < T) (s v : Fin T → EReal)
    (hs : ∀ t, ∃ r : ℝ, s t = r) (hv : ∀ t, ∃ r : ℝ, v t = r) : avgAfter s v = avgBefore s v := by
  choose sr hs using hs
  choose vr hv using hv
  -- the row maximum is a real
  obtain ⟨M, hM⟩ : ∃ M : ℝ, rowMax s = (M : EReal) := by
    have hs' : s = fun t => (sr t : EReal) := funext hs
    rcases fold_max_coe (Finset.univ : Finset (Fin T)) sr with ⟨he, -⟩ | ⟨M, h⟩
    · exact absurd he (Finset.univ_nonempty_iff.mpr ⟨⟨0, hT⟩⟩).ne_empty
    · exact ⟨M, by unfold rowMax; rw [hs']; exact h⟩
  -- each weight is the real exponential
  have hw : ∀ t, weight s t = ((Real.exp (sr t - M) : ℝ) : EReal) := fun t => by
    unfold weight
    rw [hs t, hM, ← EReal.coe_sub, Ideal.exp_coe]
  -- their sum is a positive real
  have hL : (0 : ℝ) < ∑ t : Fin T, Real.exp (sr t - M) :=
    Finset.sum_pos (fun t _ => Real.exp_pos _) (Finset.univ_nonempty_iff.mpr ⟨⟨0, hT⟩⟩)
  have hsum : (∑ t : Fin T, weight s t) = ((∑ t : Fin T, Real.exp (sr t - M) : ℝ) : EReal) := by
    rw [coe_sum]; exact Finset.sum_congr rfl fun t _ => hw t
  unfold avgAfter avgBefore
  rw [hsum, zero_add, Ideal.div_coe hL.ne']
  have hnum : (∑ t : Fin T, weight s t * v t) = ((∑ t : Fin T, Real.exp (sr t - M) * vr t : ℝ) : EReal) := by
    rw [coe_sum]; exact Finset.sum_congr rfl fun t _ => by rw [hw t, hv t, EReal.coe_mul]
  rw [hnum, ← EReal.coe_mul, Finset.sum_mul, coe_sum]
  refine Finset.sum_congr rfl fun t _ => ?_
  rw [Ideal.div_coe hL.ne', hw t, hv t, ← EReal.coe_mul, ← EReal.coe_mul]
  exact congrArg _ (by ring)

end Cert.Attn

end
-- ==== Proof.Consts.lean ====
/-
  The three float words the two programs spell, as the extended reals they denote: `-inf` (the start of both
  row maxima) is the bottom `⊥`; `0.125 = 1/sqrt 64` (the score scale, the same word in both programs) is the
  real `1/8`. Stated once here, so that no other module unfolds the bit patterns.
-/
import Idealize.ShloMosaic.PureOps.Ideal

noncomputable section

namespace Cert.Attn.Consts

open Idealize.ShloMosaic

/-- The word `0xFF800000` is `-∞`. -/
theorem neg_inf : Ideal.ofBits .f32 0xFF800000#32 = (⊥ : EReal) := by
  simp [Ideal.ofBits, Ideal.ieee]

/-- The word `0x3E000000` is the real `1/8`. -/
theorem scale : Ideal.ofBits .f32 0x3E000000#32 = (((1 : ℝ) / 8 : ℝ) : EReal) := by
  simp [Ideal.ofBits, Ideal.ieee, -EReal.coe_mul]; norm_num

/-- So the scale is a real number. -/
theorem scale_real : ∃ r : ℝ, Ideal.ofBits .f32 0x3E000000#32 = (r : EReal) := ⟨_, scale⟩

end Cert.Attn.Consts

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.Payload.lean ====
/-
  The kernel body's stored value, read at one element.

  At a grid point the body loads a query block `x0 : [1, 1024, 64]`, the head's keys `x1 : [1, 2048, 64]` and
  values `x2 : [1, 2048, 64]` and stores a `[1, 1024, 64]` block. Element `(0, r, d)` of what it stores is the
  softmax-weighted average of value column `d` under the scores of query row `r`, normalized after the weighted sum:
  the scores `(∑ k, x0 (0, r, k) * x1 (0, t, k)) * scale` are a matrix product into a zero accumulator times the scale
  splat; the row maximum is a lane reduction from `-∞`, viewed as a column and broadcast along the row; the weights are
  the exponentials of the differences; the numerator is a second matrix product into zero, the denominator the lane sum
  of the weights, again a column broadcast along the row. Changes of float format are the identity on the extended reals.
-/
import proofs.«164997_j55843164783283_2_alg».proof.Proof.Gen.KernelIdeal.Skeleton
import proofs.«164997_j55843164783283_2_alg».proof.Proof.Softmax
import proofs.«164997_j55843164783283_2_alg».proof.Proof.Consts
import proofs.«164997_j55843164783283_2_alg».proof.Proof.LibKeepdims
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The score product's dimensions (query rows against key rows, both contracted on their last axis). -/
abbrev DQK := dot_S1024x64_S2048x64_S1024x2048_1_1_0_0_n_n
/-- The value product's dimensions (weights' columns against value rows). -/
abbrev DPV := dot_S1024x2048_S2048x64_S1024x64_1_0_0_1_n_n

/-! ## The products' operand indices, coordinate by coordinate -/

theorem qk_lhs0 (i : S1024x2048.Idx) (q : DQK.contr.Idx) : (DQK.lhsIdx i q 0).val = (i 0).val := by
  unfold DotDims.lhsIdx
  rw [dif_neg (show ¬(0 : Fin S1024x64.rank) ∈ DQK.lhsBatch by decide), dif_pos (show (0 : Fin S1024x64.rank) ∈ DQK.lhsNonContracting by decide)]
  rfl
theorem qk_lhs1 (i : S1024x2048.Idx) (q : DQK.contr.Idx) : (DQK.lhsIdx i q 1).val = (q ⟨0, by decide⟩).val :=
  DQK.lhsIdx_val_of_single rfl i q
theorem qk_rhs0 (i : S1024x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_rhs1 (i : S1024x2048.Idx) (q : DQK.contr.Idx) : (DQK.rhsIdx i q 1).val = (q ⟨0, by decide⟩).val :=
  DQK.rhsIdx_val_of_single rfl i q
theorem pv_lhs0 (i : S1024x64.Idx) (q : DPV.contr.Idx) : (DPV.lhsIdx i q 0).val = (i 0).val := by
  unfold DotDims.lhsIdx
  rw [dif_neg (show ¬(0 : Fin S1024x2048.rank) ∈ DPV.lhsBatch by decide), dif_pos (show (0 : Fin S1024x2048.rank) ∈ DPV.lhsNonContracting by decide)]
  rfl
theorem pv_lhs1 (i : S1024x64.Idx) (q : DPV.contr.Idx) : (DPV.lhsIdx i q 1).val = (q ⟨0, by decide⟩).val :=
  DPV.lhsIdx_val_of_single rfl i q
theorem pv_rhs0 (i : S1024x64.Idx) (q : DPV.contr.Idx) : (DPV.rhsIdx i q 0).val = (q ⟨0, by decide⟩).val :=
  DPV.rhsIdx_val_of_single rfl i q
theorem pv_rhs1 (i : S1024x64.Idx) (q : DPV.contr.Idx) : (DPV.rhsIdx i q 1).val = (i 1).val := by
  unfold DotDims.rhsIdx
  rw [dif_neg (show ¬(1 : Fin S2048x64.rank) ∈ DPV.rhsBatch by decide), dif_pos (show (1 : Fin S2048x64.rank) ∈ DPV.rhsNonContracting by decide)]
  rfl

/-! ## The two matrix products at an element -/

/-- Query rows against key rows into zero: at `(r, t)` the sum over `k` of `a (r, k) * b (t, k)`. -/
theorem qk_apply (a : FVec Ideal S1024x64 .bf16) (b : FVec Ideal S2048x64 .bf16) (r : Fin 1024) (t : Fin 2048) :
    matmul DQK none a b (constant S1024x2048 .f32 0x00000000#32) (ix2 r t) = ∑ k : Fin 64, a (ix2 r k) * b (ix2 t k) := by
  refine (Ideal.matmul_constant_zero_apply DQK none a b (ix2 r t)).trans ?_
  rw [← Equiv.sum_comp (contrEquiv1 DQK 64 rfl rfl).symm]
  refine Finset.sum_congr rfl fun k _ => ?_
  have hk := contrEquiv1_symm_val DQK 64 rfl rfl k
  have el : DQK.lhsIdx (ix2 r t) ((contrEquiv1 DQK 64 rfl rfl).symm k) = ix2 r k := funext fun c => Fin.ext (by
    match c with
    | ⟨0, _⟩ => exact qk_lhs0 _ _
    | ⟨1, _⟩ => exact (qk_lhs1 _ _).trans hk)
  have er : DQK.rhsIdx (ix2 r t) ((contrEquiv1 DQK 64 rfl rfl).symm k) = ix2 t k := funext fun c => Fin.ext (by
    match c with
    | ⟨0, _⟩ => exact qk_rhs0 _ _
    | ⟨1, _⟩ => exact (qk_rhs1 _ _).trans hk)
  rw [el, er]

/-- Weight rows against value columns into zero: at `(r, d)` the sum over `t` of `a (r, t) * b (t, d)`. -/
theorem pv_apply (a : FVec Ideal S1024x2048 .bf16) (b : FVec Ideal S2048x64 .bf16) (r : Fin 1024) (d : Fin 64) :
    matmul DPV none a b (constant S1024x64 .f32 0x00000000#32) (ix2 r d) = ∑ t : Fin 2048, a (ix2 r t) * b (ix2 t d) := by
  refine (Ideal.matmul_constant_zero_apply DPV none a b (ix2 r d)).trans ?_
  rw [← Equiv.sum_comp (contrEquiv1 DPV 2048 rfl rfl).symm]
  refine Finset.sum_congr rfl fun k _ => ?_
  have hk := contrEquiv1_symm_val DPV 2048 rfl rfl k
  have el : DPV.lhsIdx (ix2 r d) ((contrEquiv1 DPV 2048 rfl rfl).symm k) = ix2 r k := funext fun c => Fin.ext (by
    match c with
    | ⟨0, _⟩ => exact pv_lhs0 _ _
    | ⟨1, _⟩ => exact (pv_lhs1 _ _).trans hk)
  have er : DPV.rhsIdx (ix2 r d) ((contrEquiv1 DPV 2048 rfl rfl).symm k) = ix2 k d := funext fun c => Fin.ext (by
    match c with
    | ⟨0, _⟩ => exact (pv_rhs0 _ _).trans hk
    | ⟨1, _⟩ => exact pv_rhs1 _ _)
  rw [el, er]

/-! ## The two lane reductions at a row -/

/-- Row `r` with the reduced coordinate `t` put back is `(r, t)`. -/
theorem lift_row (h : S1024x2048.Reduces [1] S1024) (r : Fin 1024) (t : Fin (S1024x2048.size 1)) :
    h.lift (ix1 r) t = ix2 r (⟨t.val, t.isLt⟩ : Fin 2048) := by
  funext c; apply Fin.ext
  fin_cases c <;> rfl

/-- The lane maximum from `-∞` at row `r` is the row maximum of that row. -/
theorem rowmax_apply (S : FVec Ideal S1024x2048 .f32) (r : Fin 1024) :
    multiReduction .maximumf [1] S1024 S 0xFF800000#32 reduces_S1024x2048_S1024 (.inl rfl) rfl (ix1 r)
      = Attn.rowMax (fun t : Fin 2048 => S (ix2 r t)) := by
  refine (Ideal.multiReduction_maximumf_single S 0xFF800000#32 reduces_S1024x2048_S1024 (.inl rfl) rfl (ix1 r)).trans ?_
  unfold Attn.rowMax
  have hf : (S ∘ reduces_S1024x2048_S1024.lift (ix1 r)) = fun t : Fin 2048 => S (ix2 r t) :=
    funext fun t => congrArg S (lift_row reduces_S1024x2048_S1024 r t)
  exact congrArg₂ (fun (b : EReal) (f : Fin 2048 → EReal) => Finset.fold max b f (Finset.univ : Finset (Fin 2048)))
    Attn.Consts.neg_inf hf

/-- The lane sum from zero at row `r` is the sum over the row. -/
theorem rowsum_apply (S : FVec Ideal S1024x2048 .f32) (r : Fin 1024) :
    multiReduction .add [1] S1024 S 0x00000000#32 reduces_S1024x2048_S1024 (.inl rfl) rfl (ix1 r)
      = ∑ t : Fin 2048, S (ix2 r t) := by
  refine (Ideal.multiReduction_add_single S 0x00000000#32 reduces_S1024x2048_S1024 (.inl rfl) rfl (ix1 r)).trans ?_
  exact Finset.sum_congr rfl fun t _ => congrArg S (lift_row reduces_S1024x2048_S1024 r t)

/-! ## The body's value in two stages -/

/-- The scaled scores of the block: the score product times the scale splat. -/
def scores (x0 : FVec Ideal S1x1024x64 .bf16) (x1 : FVec Ideal S1x2048x64 .bf16) : FVec Ideal S1024x2048 .f32 :=
  mulf (matmul (φ₁ := .bf16) (φ₂ := .bf16) DQK none (shapeCast S1024x64 x0 shapeCasts_S1x1024x64_S1024x64) (shapeCast S2048x64 x1 shapeCasts_S1x2048x64_S2048x64)
    (constant S1024x2048 .f32 0x00000000#32)) (broadcast S1024x2048 (Scalar.ofBits .f32 0x3E000000#32))

/-- The weights of a score matrix: exponentials of the scores less their row maxima. -/
def weights (S : FVec Ideal S1024x2048 .f32) : FVec Ideal S1024x2048 .f32 :=
  exp (subf S (broadcastTo S1024x2048 (shapeCast S1024x1
    (multiReduction .maximumf [1] S1024 S 0xFF800000#32 reduces_S1024x2048_S1024 (.inl rfl) rfl) shapeCasts_S1024_S1024x1)
    broadcasts_S1024x1_S1024x2048))

/-- What is stored, from the score matrix and the value block. -/
def normalized (S : FVec Ideal S1024x2048 .f32) (x2 : FVec Ideal S1x2048x64 .bf16) : FVec Ideal S1x1024x64 .f32 :=
  shapeCast S1x1024x64
    (divf (matmul (φ₁ := .bf16) (φ₂ := .bf16) DPV none (truncf .bf16 (weights S) bitsLt_bf16_f32) (shapeCast S2048x64 x2 shapeCasts_S1x2048x64_S2048x64)
        (constant S1024x64 .f32 0x00000000#32))
      (broadcastTo S1024x64 (shapeCast S1024x1
        (multiReduction .add [1] S1024 (weights S) 0x00000000#32 reduces_S1024x2048_S1024 (.inl rfl) rfl) shapeCasts_S1024_S1024x1)
        broadcasts_S1024x1_S1024x64))
    shapeCasts_S1024x64_S1x1024x64

/-- The body's payload is these two stages composed. -/
theorem pay_eq (x0 : FVec Ideal S1x1024x64 .bf16) (x1 x2 : FVec Ideal S1x2048x64 .bf16) :
    k0_pay1 (F := Ideal) x0 x1 x2 = normalized (scores x0 x1) x2 := rfl

/-- A score: query row `r` against key row `t`, scaled. -/
theorem scores_apply (x0 : FVec Ideal S1x1024x64 .bf16) (x1 : FVec Ideal S1x2048x64 .bf16) (r : Fin 1024) (t : Fin 2048) :
    scores x0 x1 (ix2 r t)
      = Attn.score (Ideal.ofBits .f32 0x3E000000#32) (fun k : Fin 64 => x0 (ix3 (0 : Fin 1) r k))
          (fun (t : Fin 2048) (k : Fin 64) => x1 (ix3 (0 : Fin 1) t k)) t := by
  unfold scores Attn.score
  show (matmul (F := Ideal) (φ₁ := .bf16) (φ₂ := .bf16) DQK none _ _ (constant S1024x2048 .f32 0x00000000#32) (ix2 r t)) * Ideal.ofBits .f32 0x3E000000#32 = _
  refine congrArg (· * Ideal.ofBits .f32 0x3E000000#32) ?_
  refine (qk_apply _ _ r t).trans (Finset.sum_congr rfl fun k _ => ?_)
  rw [shapeCast_1ab_ab_apply x0 shapeCasts_S1x1024x64_S1024x64 r k, shapeCast_1ab_ab_apply x1 shapeCasts_S1x2048x64_S2048x64 t k]

/-- A weight: the exponential of the score less its row's maximum. -/
theorem weights_apply (S : FVec Ideal S1024x2048 .f32) (r : Fin 1024) (t : Fin 2048) :
    weights S (ix2 r t) = Attn.weight (fun t : Fin 2048 => S (ix2 r t)) t := by
  unfold weights Attn.weight
  show Ideal.exp (S (ix2 r t) - broadcastTo S1024x2048 _ broadcasts_S1024x1_S1024x2048 (ix2 r t)) = _
  refine congrArg (fun z => Ideal.exp (S (ix2 r t) - z)) ?_
  refine (LibKeepdims.broadcastTo_a1_ab_apply _ broadcasts_S1024x1_S1024x2048 r t).trans ?_
  refine (LibKeepdims.shapeCast_a_a1_apply _ shapeCasts_S1024_S1024x1 r (0 : Fin 1)).trans ?_
  exact rowmax_apply S r

/-- The stored block at `(u, r, d)`: value column `d` averaged under row `r`'s weights, normalized after the sum. -/
theorem normalized_apply (S : FVec Ideal S1024x2048 .f32) (x2 : FVec Ideal S1x2048x64 .bf16) (u : Fin 1) (r : Fin 1024) (d : Fin 64) :
    normalized S x2 (ix3 u r d)
      = Attn.avgAfter (fun t : Fin 2048 => S (ix2 r t)) (fun t : Fin 2048 => x2 (ix3 (0 : Fin 1) t d)) := by
  unfold normalized Attn.avgAfter
  refine (shapeCast_ab_1ab_apply _ shapeCasts_S1024x64_S1x1024x64 u r d).trans ?_
  show Ideal.div (matmul (F := Ideal) (φ₁ := .bf16) (φ₂ := .bf16) DPV none _ _ (constant S1024x64 .f32 0x00000000#32) (ix2 r d))
      (broadcastTo S1024x64 _ broadcasts_S1024x1_S1024x64 (ix2 r d)) = _
  refine congrArg₂ Ideal.div ?_ ?_
  · refine (pv_apply _ _ r d).trans (Finset.sum_congr rfl fun t _ => ?_)
    rw [shapeCast_1ab_ab_apply x2 shapeCasts_S1x2048x64_S2048x64 t d]
    exact congrArg (· * x2 (ix3 (0 : Fin 1) t d)) (weights_apply S r t)
  · refine (LibKeepdims.broadcastTo_a1_ab_apply _ broadcasts_S1024x1_S1024x64 r d).trans ?_
    refine (LibKeepdims.shapeCast_a_a1_apply _ shapeCasts_S1024_S1024x1 r (0 : Fin 1)).trans ?_
    refine (rowsum_apply (weights S) r).trans (Finset.sum_congr rfl fun t _ => weights_apply S r t)

/-- THE BODY'S VALUE at `(u, r, d)`, of its three loaded blocks. -/
theorem pay_apply (x0 : FVec Ideal S1x1024x64 .bf16) (x1 x2 : FVec Ideal S1x2048x64 .bf16) (u : Fin 1) (r : Fin 1024) (d : Fin 64) :
    k0_pay1 (F := Ideal) x0 x1 x2 (ix3 u r d)
      = Attn.avgAfter
          (Attn.score (Ideal.ofBits .f32 0x3E000000#32) (fun k : Fin 64 => x0 (ix3 (0 : Fin 1) r k))
            (fun (t : Fin 2048) (k : Fin 64) => x1 (ix3 (0 : Fin 1) t k)))
          (fun t : Fin 2048 => x2 (ix3 (0 : Fin 1) t d)) := by
  rw [pay_eq, normalized_apply]
  exact congrArg (fun s => Attn.avgAfter s (fun t : Fin 2048 => x2 (ix3 (0 : Fin 1) t d))) (funext fun t => scores_apply x0 x1 r t)

end Cert.KernelIdeal.Body

end
-- ==== Proof.Blocks.lean ====
/-
  From the blocks the grid points write back to the region's whole result array.

  The grid is `32 × 2`: point `(g, qi)` works on head row `g` of the flattened operands and on query rows
  `qi·1024 … qi·1024 + 1023`. Its query block is rows `qi·1024 + r` of head row `g`; its key and value blocks are ALL
  2048 rows of head row `g`; its output block is rows `qi·1024 + r` of head row `g` of the result. So what it writes
  back is the restriction, to its block, of ONE function of the three operand arrays: at `(g, s, d)` the
  softmax-weighted average of value column `d` of head row `g` under the scores of query row `s`. The 64 output
  blocks tile the result array (the point covering `(g, s, d)` is `(g, s / 1024)`), so after the run the array holds
  that function everywhere.
-/
import proofs.«164997_j55843164783283_2_alg».proof.Proof.Gen.KernelIdeal.Frame
import proofs.«164997_j55843164783283_2_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

/-! ## The result array as one function of the operand arrays -/

/-- The result at head row `g`, query row `s`, column `d`. -/
def outAt (Q K Vv : S32x2048x64.Idx → EReal) (g : Fin 32) (s : Fin 2048) (d : Fin 64) : EReal :=
  Attn.avgAfter
    (Attn.score (Ideal.ofBits .f32 0x3E000000#32) (fun k : Fin 64 => Q (ix3 g s k)) (fun (t : Fin 2048) (k : Fin 64) => K (ix3 g t k)))
    (fun t : Fin 2048 => Vv (ix3 g t d))

/-- The whole result array. -/
def outArr (Q K Vv : S32x2048x64.Idx → EReal) : S32x2048x64.Idx → EReal := fun i =>
  outAt Q K Vv ⟨(i 0).val, (i 0).isLt⟩ ⟨(i 1).val, (i 1).isLt⟩ ⟨(i 2).val, (i 2).isLt⟩

theorem outArr_apply (Q K Vv : S32x2048x64.Idx → EReal) (g : Fin 32) (s : Fin 2048) (d : Fin 64) :
    outArr Q K Vv (ix3 g s d) = outAt Q K Vv g s d := rfl

/-! ## The index maps over the grid -/

theorem hz3 : (![0, 0, 0] : Fin 3 → Nat) = fun _ => 0 := funext fun a => by fin_cases a <;> rfl

/-- The printed index maps, decided over the 64 points: the query and output blocks sit at the point's head row and
    row tile, the key and value blocks at the point's head row and tile 0, and the last axis is never tiled. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 31 ∧ win0_3.index t (1 : Fin 3) ≤ 1 :=
  (by decide +kernel : ∀ t : Fin grid0.N, _)

/-- Every (head row, row tile) pair is some point's output block. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- The head row of point `t`. -/
def headRow (t : Fin cfg0.N) : Fin 32 := ⟨win0_3.index t (0 : Fin 3), by have := (idx_facts t).2.2.2.2.2.2.2.2.2.2.1; omega⟩
/-- Query row `r` of point `t`'s tile, in the array. -/
def qRow (t : Fin cfg0.N) (r : Fin 1024) : Fin 2048 :=
  ⟨win0_3.index t (1 : Fin 3) * 1024 + r.val, by have := (idx_facts t).2.2.2.2.2.2.2.2.2.2.2; have := r.isLt; omega⟩

/-! ## The blocks read off arbitrary arrays -/

/-- The query block of point `t` at `(0, r, k)` is the array at (head row, the tile's row `r`, `k`). -/
theorem read_q (c : Dev nD) (A : Buf (Elt Ideal) ((c : Thread nD τ).loc (Pipeline.arrRef spec0 0))) (t : Fin cfg0.N)
    (u : Fin 1) (r : Fin 1024) (k : Fin 64) :
    ((cfg0.win 0).blk t).view.read (Elt Ideal) A (ix3 u r k) = (A : S32x2048x64.Idx → EReal) (ix3 (headRow t) (qRow t r) k) := by
  obtain ⟨e0, e1, e2, -⟩ := idx_facts t
  rw [View.read_apply]
  show (A : S32x2048x64.Idx → EReal) (((cfg0.win 0).blk t).view.emb (ix3 u r k)) = _
  refine congrArg (A : S32x2048x64.Idx → EReal) (funext fun a => Fin.ext ?_)
  match a with
  | ⟨0, _⟩ => show win0_0.index t (0 : Fin 3) * 1 + 1 * u.val = win0_3.index t (0 : Fin 3); have := u.isLt; omega
  | ⟨1, _⟩ => show win0_0.index t (1 : Fin 3) * 1024 + 1 * r.val = win0_3.index t (1 : Fin 3) * 1024 + r.val; omega
  | ⟨2, _⟩ => show win0_0.index t (2 : Fin 3) * 64 + 1 * k.val = k.val; omega

/-- The key block of point `t` at `(0, t', k)` is the array at (head row, `t'`, `k`). -/
theorem read_k (c : Dev nD) (A : Buf (Elt Ideal) ((c : Thread nD τ).loc (Pipeline.arrRef spec0 1))) (t : Fin cfg0.N)
    (u : Fin 1) (t' : Fin 2048) (k : Fin 64) :
    ((cfg0.win 1).blk t).view.read (Elt Ideal) A (ix3 u t' k) = (A : S32x2048x64.Idx → EReal) (ix3 (headRow t) t' k) := by
  obtain ⟨-, -, -, e0, e1, e2, -⟩ := idx_facts t
  rw [View.read_apply]
  show (A : S32x2048x64.Idx → EReal) (((cfg0.win 1).blk t).view.emb (ix3 u t' k)) = _
  refine congrArg (A : S32x2048x64.Idx → EReal) (funext fun a => Fin.ext ?_)
  match a with
  | ⟨0, _⟩ => show win0_1.index t (0 : Fin 3) * 1 + 1 * u.val = win0_3.index t (0 : Fin 3); have := u.isLt; omega
  | ⟨1, _⟩ => show win0_1.index t (1 : Fin 3) * 2048 + 1 * t'.val = t'.val; omega
  | ⟨2, _⟩ => show win0_1.index t (2 : Fin 3) * 64 + 1 * k.val = k.val; omega

/-- The value block of point `t` at `(0, t', d)` is the array at (head row, `t'`, `d`). -/
theorem read_v (c : Dev nD) (A : Buf (Elt Ideal) ((c : Thread nD τ).loc (Pipeline.arrRef spec0 2))) (t : Fin cfg0.N)
    (u : Fin 1) (t' : Fin 2048) (d : Fin 64) :
    ((cfg0.win 2).blk t).view.read (Elt Ideal) A (ix3 u t' d) = (A : S32x2048x64.Idx → EReal) (ix3 (headRow t) t' d) := by
  obtain ⟨-, -, -, -, -, -, e0, e1, e2, -⟩ := idx_facts t
  rw [View.read_apply]
  show (A : S32x2048x64.Idx → EReal) (((cfg0.win 2).blk t).view.emb (ix3 u t' d)) = _
  refine congrArg (A : S32x2048x64.Idx → EReal) (funext fun a => Fin.ext ?_)
  match a with
  | ⟨0, _⟩ => show win0_2.index t (0 : Fin 3) * 1 + 1 * u.val = win0_3.index t (0 : Fin 3); have := u.isLt; omega
  | ⟨1, _⟩ => show win0_2.index t (1 : Fin 3) * 2048 + 1 * t'.val = t'.val; omega
  | ⟨2, _⟩ => show win0_2.index t (2 : Fin 3) * 64 + 1 * d.val = d.val; omega

/-- The output block of point `t`, read off any array, at `(u, r, d)` is the array at (head row, the tile's row `r`, `d`). -/
theorem read_o (c : Dev nD) (A : Buf (Elt Ideal) ((c : Thread nD τ).loc (Pipeline.arrRef spec0 3))) (t : Fin cfg0.N)
    (u : Fin 1) (r : Fin 1024) (d : Fin 64) :
    ((cfg0.win 3).blk t).view.read (Elt Ideal) A (ix3 u r d) = (A : S32x2048x64.Idx → EReal) (ix3 (headRow t) (qRow t r) d) := by
  obtain ⟨-, -, -, -, -, -, -, -, -, e2, -⟩ := idx_facts t
  rw [View.read_apply]
  show (A : S32x2048x64.Idx → EReal) (((cfg0.win 3).blk t).view.emb (ix3 u r d)) = _
  refine congrArg (A : S32x2048x64.Idx → EReal) (funext fun a => Fin.ext ?_)
  match a with
  | ⟨0, _⟩ => show win0_3.index t (0 : Fin 3) * 1 + 1 * u.val = win0_3.index t (0 : Fin 3); have := u.isLt; omega
  | ⟨1, _⟩ => show win0_3.index t (1 : Fin 3) * 1024 + 1 * r.val = win0_3.index t (1 : Fin 3) * 1024 + r.val; omega
  | ⟨2, _⟩ => show win0_3.index t (2 : Fin 3) * 64 + 1 * d.val = d.val; omega

/-! ## What a point writes back -/

/-- WHAT POINT `t` WRITES BACK is block `t` of `outArr` of the operand arrays as the region finds them. -/
theorem flushed_eq (c : Dev nD) (t : Fin cfg0.N) :
    (dats m 0 c).flushed 3 t
      = ((cfg0.win 3).blk t).view.read (Elt Ideal) (outArr (V m c main_v2) (V m c main_v5) (V m c main_v8)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  funext j
  obtain ⟨u, r, d, rfl⟩ : ∃ (u : Fin 1) (r : Fin 1024) (d : Fin 64), j = ix3 u r d := ⟨j 0, j 1, j 2, eq_ix3 j⟩
  refine (Body.pay_apply (iblk m c 0 t) (iblk m c 1 t) (iblk m c 2 t) u r d).trans ?_
  refine Eq.trans ?_ (read_o c (outArr (V m c main_v2) (V m c main_v5) (V m c main_v8)) t u r d).symm
  rw [outArr_apply]
  unfold outAt
  exact congrArg₂ Attn.avgAfter
    (congrArg₂ (Attn.score (Ideal.ofBits .f32 0x3E000000#32))
      (funext fun k => read_q c (V m c (Pipeline.arrRef spec0 0)) t 0 r k)
      (funext fun t' => funext fun k => read_k c (V m c (Pipeline.arrRef spec0 1)) t 0 t' k))
    (funext fun t' => read_v c (V m c (Pipeline.arrRef spec0 2)) t 0 t' d)

/-! ## The cover -/

/-- An index of the result array is in point `t`'s block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v9).slice (win0_3.rect t)).set ↔ _
  rw [View.set_slice_whole, Rect.mem_set_unit]
  exact Iff.rfl

/-- Every index of the result array is in some point's block: the one of its head row and of its row's tile. -/
theorem covered (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The array after the run -/

/-- THE RESULT ARRAY after the run is `outArr` of the operand arrays as the region finds them. -/
theorem final (c : Dev nD) :
    (dats m 0 c).arrAt 3 cfg0.N = outArr (V m c main_v2) (V m c main_v5) (V m c main_v8) :=
  (dats m 0 c).arrAt_eq_of_cover 3 _ (fun t _ => flushed_eq m c t) covered

end Cert.KernelIdeal.Blocks

end
-- ==== Proof.Layout.lean ====
/-
  The head-major relayout of an attention operand, read at an index.

  An operand `[B, S, H, D] = [2, 2048, 16, 64]` is transposed to `[B, H, S, D]` and flattened to
  `[B·H, S, D] = [32, 2048, 64]`: row `g` of the flattened array is batch `g / 16`, head `g % 16`, since
  the row-major position `((b·16 + h)·2048 + s)·64 + d` is `(g·2048 + s)·64 + d` exactly for `g = b·16 + h`.
  The result goes back the same way: `[32, 2048, 64]` is unflattened to `[2, 16, 2048, 64]` and transposed
  to `[2, 2048, 16, 64]`, so that output element `(b, s, h, d)` is element `(b·16 + h, s, d)` of the flat result.
-/
import Idealize.ShloMosaic.Lib.Pipeline.Value
import Idealize.ShloMosaic.Lib.ValueIdx

namespace Cert.Attn.Layout

open Idealize.ShloMosaic Idealize.ShloMosaic.ValueIdx

variable {α : Type}

abbrev SArg : Shape := ⟨4, ![2, 2048, 16, 64]⟩
abbrev SHead : Shape := ⟨4, ![2, 16, 2048, 64]⟩
abbrev SFlat : Shape := ⟨3, ![32, 2048, 64]⟩

/-- The batch of flattened row `g`. -/
abbrev batchOf (g : Fin 32) : Fin 2 := ⟨g.val / 16, by have := g.isLt; omega⟩
/-- The head of flattened row `g`. -/
abbrev headOf (g : Fin 32) : Fin 16 := ⟨g.val % 16, by omega⟩
/-- The flattened row of batch `b`, head `h`. -/
abbrev rowOf (b : Fin 2) (h : Fin 16) : Fin 32 := ⟨b.val * 16 + h.val, by have := b.isLt; have := h.isLt; omega⟩

/-- The flattened head-major operand at `(g, s, d)` is the operand at `(g / 16, s, g % 16, d)`. -/
theorem flat_apply (A : SArg.Idx → α) (h1 : SArg.Transposes [0, 2, 1, 3] SHead) (h2 : SHead.ShapeCasts SFlat)
    (g : Fin 32) (s : Fin 2048) (d : Fin 64) :
    shapeCast SFlat (transpose SHead [0, 2, 1, 3] A h1) h2 (ix3 g s d) = A (ix4 (batchOf g) s (headOf g) d) := by
  refine (shapeCast_apply _ h2 (ix3 g s d) (ix4 (batchOf g) (headOf g) s d) ?_).trans ?_
  · rw [Shape.rowMajor_val_four, Shape.rowMajor_val_three]
    show ((g.val / 16 * 16 + g.val % 16) * 2048 + s.val) * 64 + d.val = (g.val * 2048 + s.val) * 64 + d.val
    have := Nat.div_add_mod g.val 16
    omega
  · exact transpose_apply [0, 2, 1, 3] A h1 _ _ (fun b => match b with
      | ⟨0, _⟩ => rfl
      | ⟨1, _⟩ => rfl
      | ⟨2, _⟩ => rfl
      | ⟨3, _⟩ => rfl)

/-- The flat result unflattened and transposed back, at `(b, s, h, d)`, is the flat result at `(b·16 + h, s, d)`. -/
theorem unflat_apply (R : SFlat.Idx → α) (h1 : SFlat.ShapeCasts SHead) (h2 : SHead.Transposes [0, 2, 1, 3] SArg)
    (b : Fin 2) (s : Fin 2048) (h : Fin 16) (d : Fin 64) :
    transpose SArg [0, 2, 1, 3] (shapeCast SHead R h1) h2 (ix4 b s h d) = R (ix3 (rowOf b h) s d) := by
  refine (transpose_apply [0, 2, 1, 3] _ h2 (ix4 b s h d) (ix4 b h s d) (fun a => match a with
      | ⟨0, _⟩ => rfl
      | ⟨1, _⟩ => rfl
      | ⟨2, _⟩ => rfl
      | ⟨3, _⟩ => rfl)).trans ?_
  refine shapeCast_apply R h1 (ix4 b h s d) (ix3 (rowOf b h) s d) ?_
  rw [Shape.rowMajor_val_four, Shape.rowMajor_val_three]
  show ((b.val * 16 + h.val) * 2048 + s.val) * 64 + d.val = (((b.val * 16 + h.val) * 2048 + s.val) * 64 + d.val)
  rfl

/-- Going to row `b·16 + h` and back finds batch `b` and head `h`. -/
theorem batchOf_rowOf (b : Fin 2) (h : Fin 16) : batchOf (rowOf b h) = b :=
  Fin.ext (by show (b.val * 16 + h.val) / 16 = b.val; have := h.isLt; omega)
theorem headOf_rowOf (b : Fin 2) (h : Fin 16) : headOf (rowOf b h) = h :=
  Fin.ext (by show (b.val * 16 + h.val) % 16 = h.val; have := h.isLt; omega)

end Cert.Attn.Layout
-- ==== Proof.HostSide.lean ====
/-
  The host lines around the region, read as functions of the argument arrays.

  Before the region each argument `[2, 2048, 16, 64]` is transposed to head-major `[2, 16, 2048, 64]`, flattened
  to `[32, 2048, 64]` and changed to the narrow float format: so the region's three operands, at `(g, s, d)`, are
  the arguments at `(g / 16, s, g % 16, d)` (the change of format is the identity on the extended reals). After
  the region its result array `[32, 2048, 64]` is unflattened and transposed back: the program's result at
  `(b, s, h, d)` is the region's result at `(b·16 + h, s, d)`.
-/
import proofs.«164997_j55843164783283_2_alg».proof.Proof.Gen.KernelIdeal.Frame
import proofs.«164997_j55843164783283_2_alg».proof.Proof.Layout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
  Idealize.ShloMosaic.StableHlo Idealize.ShloMosaic.ValueIdx

section AnyValues
variable {F : FTy → Type} [FloatOps F]
variable (m : (ℓ : Loc nD τ sig) → Buf (Elt F) ℓ)

/-- An argument array relaid for the region: head-major, flattened, narrowed. -/
def relaid (A : (⟨S2x2048x16x64, .f32⟩ : BufTy).Contents (Elt F)) : (⟨S32x2048x64, .bf16⟩ : BufTy).Contents (Elt F) :=
  truncf .bf16 (shapeCast S32x2048x64 (transpose S2x16x2048x64 [0, 2, 1, 3] A transposes_S2x2048x16x64_S2x16x2048x64_0_2_1_3)
    shapeCasts_S2x16x2048x64_S32x2048x64) bitsLt_bf16_f32

/-- The region finds the queries relaid from the first argument, -/
theorem V_q (c : Dev nD) :
    (V m c main_v2 : (⟨S32x2048x64, .bf16⟩ : BufTy).Contents (Elt F)) = relaid (m ((c : Thread nD τ).loc main_arg0)) := by
  show StableHlo.after hostOps0 (fun b => m (c, b)) (Proc.devRef .tc main_v2) = _
  after_results
  rfl

/-- the keys from the second, -/
theorem V_k (c : Dev nD) :
    (V m c main_v5 : (⟨S32x2048x64, .bf16⟩ : BufTy).Contents (Elt F)) = relaid (m ((c : Thread nD τ).loc main_arg1)) := by
  show StableHlo.after hostOps0 (fun b => m (c, b)) (Proc.devRef .tc main_v5) = _
  after_results
  rfl

/-- the values from the third. -/
theorem V_v (c : Dev nD) :
    (V m c main_v8 : (⟨S32x2048x64, .bf16⟩ : BufTy).Contents (Elt F)) = relaid (m ((c : Thread nD τ).loc main_arg2)) := by
  show StableHlo.after hostOps0 (fun b => m (c, b)) (Proc.devRef .tc main_v8) = _
  after_results
  rfl

/-- The region's result unflattened and transposed back. -/
def unrelaid (R : (⟨S32x2048x64, .f32⟩ : BufTy).Contents (Elt F)) : (⟨S2x2048x16x64, .f32⟩ : BufTy).Contents (Elt F) :=
  transpose S2x2048x16x64 [0, 2, 1, 3] (shapeCast S2x16x2048x64 R shapeCasts_S32x2048x64_S2x16x2048x64)
    transposes_S2x16x2048x64_S2x2048x16x64_0_2_1_3

/-- After the lines that follow the region, the program's result buffer holds the region's final result array,
    unflattened and transposed back. -/
theorem tail_result (c : Dev nD) :
    Pipeline.afterTail₀ cfgs (dats m) 0 (V0 m) [hostOps1] c main_v11 = unrelaid ((dats m 0 c).arrAt 3 cfg0.N) := by
  unfold Pipeline.afterTail₀
  show StableHlo.after hostOps1 _ (Proc.devRef .tc main_v11) = _
  after_results
  show transpose S2x2048x16x64 [0, 2, 1, 3] (shapeCast S2x16x2048x64
      (Pipeline.withArrays spec0 c (V0 m c) (fun w => (dats m 0 c).arrAt w cfg0.N) (Proc.devRef .tc (Pipeline.arrRef spec0 3)))
      shapeCasts_S32x2048x64_S2x16x2048x64) transposes_S2x16x2048x64_S2x2048x16x64_0_2_1_3 = _
  rw [Pipeline.withArrays_arr spec0 launch0.win.arr_inj c _ _ 3]
  rfl

end AnyValues

/-! ## At the extended reals, element by element -/

/-- A relaid argument at `(g, s, d)` is the argument at `(g / 16, s, g % 16, d)`. -/
theorem relaid_apply (A : (⟨S2x2048x16x64, .f32⟩ : BufTy).Contents (Elt Ideal)) (g : Fin 32) (s : Fin 2048) (d : Fin 64) :
    relaid (F := Ideal) A (ix3 g s d) = A (ix4 (Attn.Layout.batchOf g) s (Attn.Layout.headOf g) d) :=
  Attn.Layout.flat_apply A transposes_S2x2048x16x64_S2x16x2048x64_0_2_1_3 shapeCasts_S2x16x2048x64_S32x2048x64 g s d

/-- The result at `(b, s, h, d)` is the region's result at `(b·16 + h, s, d)`. -/
theorem unrelaid_apply (R : (⟨S32x2048x64, .f32⟩ : BufTy).Contents (Elt Ideal)) (b : Fin 2) (s : Fin 2048) (h : Fin 16) (d : Fin 64) :
    unrelaid (F := Ideal) R (ix4 b s h d) = R (ix3 (Attn.Layout.rowOf b h) s d) :=
  Attn.Layout.unflat_apply R shapeCasts_S32x2048x64_S2x16x2048x64 transposes_S2x16x2048x64_S2x2048x16x64_0_2_1_3 b s h d

end Cert.KernelIdeal.HostSide

end
-- ==== Proof.RefValue.lean ====
/-
  The reference's result, read at one element.

  The reference transposes its three arguments to head-major `[2, 16, 2048, 64]`, takes the scores of every query
  against every key of its head as a batched product times the scale, the row maxima by a reduce from `-∞` (joined
  once more with `-∞`, which changes nothing), the weights as exponentials of the differences, their row sums by a
  reduce from zero, divides every weight by its row's sum, takes the batched product of the normalized weights with the
  values, and transposes back. So its result at `(b, s, h, d)` is the softmax-weighted average of value column `d` of
  head `(b, h)` under the scores of query `(b, s, h)`, normalized weight by weight.
-/
import proofs.«164997_j55843164783283_2_alg».proof.Proof.Gen.ReferenceIdeal.Read
import proofs.«164997_j55843164783283_2_alg».proof.Proof.Softmax
import proofs.«164997_j55843164783283_2_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 x1 x2 : (⟨S2x2048x16x64, .f32⟩ : BufTy).Contents (Elt Ideal))

/-- A score: query `(b, s, h)` against key `(b, t, h)`, scaled. -/
theorem score_apply (b : Fin 2) (h : Fin 16) (s t : Fin 2048) :
    val_main_v5 (F := Ideal) x0 x1 (ix4 b h s t)
      = Attn.score (Ideal.ofBits .f32 0x3E000000#32) (fun k : Fin 64 => x0 (ix4 b s h k))
          (fun (t : Fin 2048) (k : Fin 64) => x1 (ix4 b t h k)) t := by
  rw [val_main_v5_apply, val_main_v3_apply, val_main_v4_apply, val_main_cst_apply]
  unfold Attn.score
  show (∑ k : Fin 64, _) * Ideal.ofBits .f32 0x3E000000#32 = _
  refine congrArg (· * Ideal.ofBits .f32 0x3E000000#32) (Finset.sum_congr rfl fun k _ => ?_)
  rw [val_main_v0_apply, val_main_v1_apply]
  exact congrArg₂ (· * ·)
    (congrArg x0 (funext fun a => Fin.ext (by match a with | ⟨0, _⟩ => rfl | ⟨1, _⟩ => rfl | ⟨2, _⟩ => rfl | ⟨3, _⟩ => rfl)))
    (congrArg x1 (funext fun a => Fin.ext (by match a with | ⟨0, _⟩ => rfl | ⟨1, _⟩ => rfl | ⟨2, _⟩ => rfl | ⟨3, _⟩ => rfl)))

/-- Row `(b, h, s)` with the reduced coordinate `t` put back is `(b, h, s, t)`. -/
theorem lift_last (hR : S2x16x2048x2048.Reduces [3] S2x16x2048) (b : Fin 2) (h : Fin 16) (s : Fin 2048)
    (t : Fin (S2x16x2048x2048.size 3)) : hR.lift (ix3 b h s) t = ix4 b h s (⟨t.val, t.isLt⟩ : Fin 2048) := by
  funext c; apply Fin.ext
  fin_cases c <;> rfl

/-- The reduce with a maximum body from `-∞`, at row `(b, h, s)`, is the row maximum of that row's scores. -/
theorem rowmax_apply (b : Fin 2) (h : Fin 16) (s : Fin 2048) :
    val_main_v6 (F := Ideal) x0 x1 (ix3 b h s)
      = Attn.rowMax (fun t : Fin 2048 => val_main_v5 (F := Ideal) x0 x1 (ix4 b h s t)) := by
  unfold val_main_v6 Attn.rowMax
  generalize val_main_v5 (F := Ideal) x0 x1 = Y
  have hR : S2x16x2048x2048.Reduces [3] S2x16x2048 := by decide
  refine (Host.reduce_eq_fold_single (FloatOps.maximumf (F := Ideal) (φ := .f32)) Y _ reducesTo_S2x16x2048x2048_S2x16x2048_d3 hR h_S_ (ix3 b h s)).trans ?_
  have hf : (Y ∘ hR.lift (ix3 b h s)) = fun t : Fin 2048 => Y (ix4 b h s t) :=
    funext fun t => congrArg Y (lift_last hR b h s t)
  exact congrArg₂ (fun (z : EReal) (f : Fin 2048 → EReal) => Finset.fold max z f (Finset.univ : Finset (Fin 2048)))
    Attn.Consts.neg_inf hf

/-- A weight: the exponential of the score less its row's maximum. -/
theorem weight_apply (b : Fin 2) (h : Fin 16) (s t : Fin 2048) :
    val_main_v12 (F := Ideal) x0 x1 (ix4 b h s t)
      = Attn.weight (fun t : Fin 2048 => val_main_v5 (F := Ideal) x0 x1 (ix4 b h s t)) t := by
  rw [val_main_v12_apply, val_main_v11_apply, val_main_v10_apply, val_main_v9_apply, val_main_v8_apply, val_main_v7_apply,
    val_main_cst_1_apply]
  have e : idx_main_v9 (idx_main_v10 (ix4 b h s t)) = ix3 b h s :=
    funext fun a => Fin.ext (by match a with | ⟨0, _⟩ => rfl | ⟨1, _⟩ => rfl | ⟨2, _⟩ => rfl)
  rw [e, rowmax_apply]
  unfold Attn.weight
  show Ideal.exp (_ - max (Ideal.ofBits .f32 0xFF800000#32) _) = _
  rw [Attn.Consts.neg_inf, max_eq_right bot_le]

/-- A row's denominator: zero plus the sum of the row's weights. -/
theorem denom_apply (b : Fin 2) (h : Fin 16) (s t : Fin 2048) :
    val_main_v15 (F := Ideal) x0 x1 (ix4 b h s t)
      = 0 + ∑ t' : Fin 2048, val_main_v12 (F := Ideal) x0 x1 (ix4 b h s t') := by
  rw [val_main_v15_apply, val_main_v14_apply]
  have e : idx_main_v14 (idx_main_v15 (ix4 b h s t)) = ix3 b h s :=
    funext fun a => Fin.ext (by match a with | ⟨0, _⟩ => rfl | ⟨1, _⟩ => rfl | ⟨2, _⟩ => rfl)
  rw [e, val_main_v13_apply, val_main_cst_2_apply]
  show Ideal.ofBits .f32 0x00000000#32 + _ = _
  rw [Ideal.ofBits_zero_f32]
  refine congrArg (0 + ·) (Finset.sum_congr rfl fun k _ => congrArg _ (funext fun a => Fin.ext (by
    match a with | ⟨0, _⟩ => rfl | ⟨1, _⟩ => rfl | ⟨2, _⟩ => rfl | ⟨3, _⟩ => rfl)))

/-- THE REFERENCE'S VALUE at `(b, s, h, d)`. -/
theorem result_apply (b : Fin 2) (s : Fin 2048) (h : Fin 16) (d : Fin 64) :
    val_main_v18 (F := Ideal) x0 x1 x2 (ix4 b s h d)
      = Attn.avgBefore
          (Attn.score (Ideal.ofBits .f32 0x3E000000#32) (fun k : Fin 64 => x0 (ix4 b s h k))
            (fun (t : Fin 2048) (k : Fin 64) => x1 (ix4 b t h k)))
          (fun t : Fin 2048 => x2 (ix4 b t h d)) := by
  rw [val_main_v18_apply]
  have e : idx_main_v18 (ix4 b s h d) = ix4 b h s d :=
    funext fun a => Fin.ext (by match a with | ⟨0, _⟩ => rfl | ⟨1, _⟩ => rfl | ⟨2, _⟩ => rfl | ⟨3, _⟩ => rfl)
  rw [e, val_main_v17_apply]
  unfold Attn.avgBefore
  have hs : (fun t : Fin 2048 => val_main_v5 (F := Ideal) x0 x1 (ix4 b h s t))
      = Attn.score (Ideal.ofBits .f32 0x3E000000#32) (fun k : Fin 64 => x0 (ix4 b s h k))
          (fun (t : Fin 2048) (k : Fin 64) => x1 (ix4 b t h k)) := funext fun t => score_apply x0 x1 b h s t
  refine Finset.sum_congr rfl fun t _ => ?_
  have el : lidx_main_v17 (ix4 b h s d) t = ix4 b h s t :=
    funext fun a => Fin.ext (by match a with | ⟨0, _⟩ => rfl | ⟨1, _⟩ => rfl | ⟨2, _⟩ => rfl | ⟨3, _⟩ => rfl)
  have er : idx_main_v2 (ridx_main_v17 (ix4 b h s d) t) = ix4 b t h d :=
    funext fun a => Fin.ext (by match a with | ⟨0, _⟩ => rfl | ⟨1, _⟩ => rfl | ⟨2, _⟩ => rfl | ⟨3, _⟩ => rfl)
  rw [el, val_main_v16_apply, val_main_v2_apply, er, denom_apply]
  simp only [weight_apply, hs]
  rfl

end Cert.ReferenceIdeal.RefValue

end
-- ==== Proof.Finite.lean ====
/-
  What the precondition says of the three arguments: every entry is a real number.

  The precondition is the conjunction, over the three arguments, of "every entry's absolute value is below `+∞`";
  on the extended reals `max x (-x) < ⊤` excludes exactly `x = ⊤` and `x = ⊥` (whose negation is `⊤`).
-/
import proofs.«164997_j55843164783283_2_alg».proof.Proof.Gen.Pre_finite_inputs
import Idealize.ShloMosaic.Lib.ReduceAll
import Idealize.ShloMosaic.Lib.ValueIdx
import Idealize.ShloMosaic.PureOps.Ideal

noncomputable section

namespace Cert.Attn.Finite

open Idealize.ShloMosaic Cert.Pre_finite_inputs

instance : Subsingleton S_.Idx := ⟨fun a b => funext fun d => d.elim0⟩

/-- The word `0x7F800000` is `+∞`. -/
theorem pos_inf : Ideal.ofBits .f32 0x7F800000#32 = (⊤ : EReal) := by
  simp [Ideal.ofBits, Ideal.ieee]

/-- An extended real whose absolute value compares below `+∞` is a real. -/
theorem real_of_abs_lt (x : EReal) (h : Ideal.cmp .olt (max x (-x)) (Ideal.ofBits .f32 0x7F800000#32) = 1#1) :
    ∃ r : ℝ, x = r := by
  rw [pos_inf] at h
  induction x using EReal.rec with
  | bot => exfalso; simp [Ideal.cmp] at h
  | top => exfalso; simp [Ideal.cmp] at h
  | coe r => exact ⟨r, rfl⟩

/-- Under the precondition every entry of every argument is a real. -/
theorem real_of_pre (a0 a1 a2 : FVec Ideal S2x2048x16x64 .f32) (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Attn.Finite

end
-- ==== Proof.Bridge.lean ====
/-
  The kernel program's result, and that it is the reference's.

  The program's result buffer ends at the region's result array unflattened and transposed back; the region's result
  array is one function of its three operands; the operands are the arguments relaid head-major. Reading these at
  `(b, s, h, d)`: flattened row `b·16 + h` is batch `b`, head `h`, so the element is the softmax-weighted average of
  value column `d` of head `(b, h)` under the scores of query `(b, s, h)`, normalized after the weighted sum. The
  reference's element is the same average normalized weight by weight. Under the precondition every argument entry is
  a real, hence so is every score and every value, and the two arrangements agree.
-/
import proofs.«164997_j55843164783283_2_alg».proof.Proof.Blocks
import proofs.«164997_j55843164783283_2_alg».proof.Proof.HostSide
import proofs.«164997_j55843164783283_2_alg».proof.Proof.RefValue
import proofs.«164997_j55843164783283_2_alg».proof.Proof.Finite

noncomputable section

namespace Cert.KernelIdeal.Bridge

open Cert.KernelIdeal Cert.KernelIdeal.Gen Idealize.ShloMosaic Idealize.ShloMosaic.TcCoe Idealize.SL.Sem
  Idealize.ShloMosaic.ValueIdx

/-- An argument array's contents. -/
abbrev Arr : Type := (⟨S2x2048x16x64, .f32⟩ : BufTy).Contents (Elt Ideal)

/-- The program's result as a function of the three arguments. -/
def kernelOut (A0 A1 A2 : Arr) : Arr :=
  HostSide.unrelaid (F := Ideal) (Blocks.outArr (HostSide.relaid (F := Ideal) A0) (HostSide.relaid (F := Ideal) A1) (HostSide.relaid (F := Ideal) A2))

/-- Its element `(b, s, h, d)`. -/
theorem kernelOut_apply (A0 A1 A2 : Arr) (b : Fin 2) (s : Fin 2048) (h : Fin 16) (d : Fin 64) :
    kernelOut A0 A1 A2 (ix4 b s h d)
      = Attn.avgAfter
          (Attn.score (Ideal.ofBits .f32 0x3E000000#32) (fun k : Fin 64 => A0 (ix4 b s h k))
            (fun (t : Fin 2048) (k : Fin 64) => A1 (ix4 b t h k)))
          (fun t : Fin 2048 => A2 (ix4 b t h d)) := by
  unfold kernelOut
  rw [HostSide.unrelaid_apply, Blocks.outArr_apply]
  unfold Blocks.outAt
  have e : ∀ (A : Arr) (s' : Fin 2048) (d' : Fin 64),
      HostSide.relaid (F := Ideal) A (ix3 (Attn.Layout.rowOf b h) s' d') = A (ix4 b s' h d') := fun A s' d' => by
    rw [HostSide.relaid_apply, Attn.Layout.batchOf_rowOf, Attn.Layout.headOf_rowOf]
  simp only [e]

/-- With every argument entry real, the program's result is the reference's result term of the same arguments. -/
theorem kernelOut_eq_reference (A0 A1 A2 : Arr) (h0 : ∀ i, ∃ r : ℝ, A0 i = r) (h1 : ∀ i, ∃ r : ℝ, A1 i = r)
    (h2 : ∀ i, ∃ r : ℝ, A2 i = r) :
    kernelOut A0 A1 A2 = Cert.ReferenceIdeal.Read.val_main_v18 (F := Ideal) A0 A1 A2 := by
  funext i
  obtain ⟨b, s, h, d, rfl⟩ : ∃ (b : Fin 2) (s : Fin 2048) (h : Fin 16) (d : Fin 64), i = ix4 b s h d :=
    ⟨i 0, i 1, i 2, i 3, eq_ix4 i⟩
  rw [kernelOut_apply, Cert.ReferenceIdeal.RefValue.result_apply]
  exact Attn.avgAfter_eq_avgBefore (by decide) _ _
    (Attn.score_real Attn.Consts.scale_real (fun k => h0 _) (fun t k => h1 _)) (fun t => h2 _)

/-- THE RUN, READ: every weakly fair execution of the program terminates with its result buffer at `kernelOut` of the
    arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11)
          = kernelOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hres : ∀ c : Dev nD, Pipeline.afterTail₀ cfgs (dats m) 0 (V0 m) [hostOps1] c main_v11
      = kernelOut (m ((c.tc : Thread nD τ).loc main_arg0)) (m ((c.tc : Thread nD τ).loc main_arg1)) (m ((c.tc : Thread nD τ).loc main_arg2)) := fun c => by
    rw [HostSide.tail_result, Blocks.final, HostSide.V_q, HostSide.V_k, HostSide.V_v]
    rfl
  exact (θ_run defs _ _).mono (fun _ h c =>
    ⟨((h c).2 main_v11 (Pipeline.mem_restRefs_of main_v11 (by decide) (by decide))).trans (hres c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Bridge

end
-- ==== Proof.lean ====
/-
  The certificate of a full-softmax attention kernel against its reference, over the extended reals.

  Both programs compute, for every batch `b`, head `h`, query position `s` and column `d`, the average of the values
  `value (b, t, h, d)` over the key positions `t`, weighted by the softmax of the scaled scores
  `(∑ k, query (b, s, h, k) * key (b, t, h, k)) / 8`. The kernel relays the three arguments head-major, runs one
  grid point per head and per tile of 1024 query rows, and divides the weighted sum by the sum of the weights; the
  reference divides each weight first. The pieces:
  • Softmax: the two arrangements and the law joining them for real scores and values;
  • Payload: what one grid point stores, at an element; Blocks: the 64 stored blocks as the region's whole result array;
  • HostSide, Layout: the relayout before the region and the one after it, at an element;
  • RefValue: the reference's result at an element; Finite: the precondition makes every argument entry a real;
  • Bridge: the kernel program's run with its result named, and that result equal to the reference's.
  The three frames are the generated runs. No operation of the kernel was rewritten for the idealized reading, so
  there is nothing to preserve.
-/
import proofs.«164997_j55843164783283_2_alg».proof.Defs
import proofs.«164997_j55843164783283_2_alg».proof.Proof.Gen.Kernel
import proofs.«164997_j55843164783283_2_alg».proof.Proof.Gen.Kernel.Skeleton
import proofs.«164997_j55843164783283_2_alg».proof.Proof.Gen.Kernel.Launch
import proofs.«164997_j55843164783283_2_alg».proof.Proof.Gen.Kernel.Points
import proofs.«164997_j55843164783283_2_alg».proof.Proof.Gen.Kernel.Frame
import proofs.«164997_j55843164783283_2_alg».proof.Proof.Gen.KernelIdeal
import proofs.«164997_j55843164783283_2_alg».proof.Proof.Gen.KernelIdeal.Skeleton
import proofs.«164997_j55843164783283_2_alg».proof.Proof.Gen.KernelIdeal.Launch
import proofs.«164997_j55843164783283_2_alg».proof.Proof.Gen.KernelIdeal.Points
import proofs.«164997_j55843164783283_2_alg».proof.Proof.Gen.KernelIdeal.Frame
import proofs.«164997_j55843164783283_2_alg».proof.Proof.Gen.ReferenceIdeal
import proofs.«164997_j55843164783283_2_alg».proof.Proof.Gen.Pre_finite_inputs
import proofs.«164997_j55843164783283_2_alg».proof.Proof.Gen.ReferenceIdeal.Run
import proofs.«164997_j55843164783283_2_alg».proof.Proof.Gen.ReferenceIdeal.Read
import proofs.«164997_j55843164783283_2_alg».proof.Proof.Bridge
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealized reading. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, whose entries the precondition makes real, both programs end with the same
    result: the kernel's run leaves the softmax-weighted averages normalized after the sum, the reference's run leaves
    them normalized weight by weight, and on reals the two are equal. -/
theorem algebraic : Cert.algebraic_KernelIdeal_ReferenceIdeal := by
  intro m ρ m' ρ' hpre hagree
  refine ⟨fun c => Cert.KernelIdeal.Bridge.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Attn.Finite.real_of_pre _ _ _ (hpre c)
  rw [Cert.ReferenceIdeal.Read.val_main_v18_eq, (hagree c).1, (hagree c).2.1, (hagree c).2.2]
  exact (Cert.KernelIdeal.Bridge.kernelOut_eq_reference _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
